-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel

variable [Facts]

def fn {F : FTy → Type} [FloatOps F] (main_arg0 : FVec F S8192x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  main_v3
-- ==== Kernel.lean ====
abbrev S8192x4096 : Shape := ⟨2, ![8192, 4096]⟩
abbrev S1x4096 : Shape := ⟨2, ![1, 4096]⟩
abbrev S2048x2048 : Shape := ⟨2, ![2048, 2048]⟩
abbrev S1x2048 : Shape := ⟨2, ![1, 2048]⟩
abbrev S8x2048 : Shape := ⟨2, ![8, 2048]⟩
abbrev S256x8x2048 : Shape := ⟨3, ![256, 8, 2048]⟩
abbrev S2048 : Shape := ⟨1, ![2048]⟩
abbrev S4096 : Shape := ⟨1, ![4096]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S4096, .f32⟩
  | .local _ .vmem, ⟨0, _⟩ => ⟨S2048x2048, .f32⟩
  | .local _ .vmem, ⟨1, _⟩ => ⟨S2048x2048, .f32⟩
  | .local _ .vmem, ⟨2, _⟩ => ⟨S1x2048, .f32⟩
  | .local _ .vmem, ⟨3, _⟩ => ⟨S1x2048, .f32⟩
  | .local _ .vmem, ⟨4, _⟩ => ⟨S8x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S8x2048_S8x2048_0_0 : ∀ a, (![0, 0] : Fin 2 → Nat) a + S8x2048.size a ≤ S8x2048.size a
  h_S8x2048 : 0 < S8x2048.numel
  shapeCasts_S8x2048_S8x2048 : S8x2048.ShapeCasts S8x2048
  inb_S2048x2048_S2048x2048_0_0 : ∀ a, (![0, 0] : Fin 2 → Nat) a + S2048x2048.size a ≤ S2048x2048.size a
  h_S2048x2048 : 0 < S2048x2048.numel
  shapeCasts_S2048x2048_S256x8x2048 : S2048x2048.ShapeCasts S256x8x2048
  reduces_S256x8x2048_S8x2048 : S256x8x2048.Reduces [0] S8x2048
  reduces_S8x2048_S2048 : S8x2048.Reduces [0] S2048
  shapeCasts_S2048_S1x2048 : S2048.ShapeCasts S1x2048
  inb_S1x2048_S1x2048_0_0 : ∀ a, (![0, 0] : Fin 2 → Nat) a + S1x2048.size a ≤ S1x2048.size a
  h_S1x2048 : 0 < S1x2048.numel
  shapeCasts_S1x4096_S4096 : S1x4096.ShapeCasts S4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S8192x4096.size a
  hwx0_0 : ∀ i : grid0.Coords, EltTy.bits .f32 = 32 ∨ (Rect.block (s := S8192x4096) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x4096.size a
  hwx0_1 : ∀ i : grid0.Coords, EltTy.bits .f32 = 32 ∨ (Rect.block (s := S1x4096) S1x2048.size (cc0_transform_1 i) (hinb0_1 i)).WholeWords (EltTy.packing .f32)

variable [Facts₀]

abbrev win0_0 : Pipeline.Window sig grid0 :=
  Pipeline.Window.ofSpec (Memref.whole main_arg0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S8192x4096 : Shape := ⟨2, ![8192, 4096]⟩
abbrev S_ : Shape := ⟨0, ![]⟩
abbrev S4096 : Shape := ⟨1, ![4096]⟩

abbrev nBuf : Space → Nat
  | .hbm => 3
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S_, .f32⟩
  | .hbm, ⟨2, _⟩ => ⟨S4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S8192x4096_S4096_d0 : S8192x4096.ReducesTo [0] S4096
  h_S_ : 0 < S_.numel

variable [Facts₀]

class Facts : Prop extends Facts₀ where

variable [Facts]
-- ==== Proof.Pieces.lean ====
/-
  What one grid step leaves behind, as a function of what it reads.

  A step reads its [2048, 2048] tile `x` of the input and the [8, 2048] running sums `acc`. At the first step of a
  column strip the running sums are first set to zero, so the step leaves `step x 0`; at every other step it leaves
  `step x acc`, where `step` adds to each running sum the tile's 256 rows that belong to it. At the last step of a
  strip the output row is the sum of the 8 running sums just written. These hold for every reading of the floats.
-/
import proofs.«102732_j46308337386059_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

/-- Every load and store of the body starts at the origin of its buffer. -/
theorem origin : (![0, 0] : Fin 2 → Nat) = fun _ => 0 := funext fun a => by fin_cases a <;> rfl

/-- First step of a strip: the running sums end at the tile's contribution added to the zeros just stored. -/
theorem sums_first (c : Dev nD) (i : grid0.Coords) (a2 : Memref sig .tc .vmem S2048x2048 .f32) (h2 : a2.IsWhole)
    (a3 : Memref sig .tc .vmem S1x2048 .f32) (h3 : a3.IsWhole) (a4 : Memref sig .tc .vmem S8x2048 .f32) (h4 : a4.IsWhole)
    (hc0 : cond0_0 i) (hc1 : ¬cond0_1 i) (x : Vec F S2048x2048 .f32) :
    sout0_A_0 c i a2 h2 a3 h3 a4 h4 hc0 hc1 x = k0_pay2 x (k0_pay1 (F := F)) := by
  unfold sout0_A_0
  rw [View.read_writes_eq_canon _ _ _ (scover0_A_0 c i a2 h2 a3 h3 a4 h4 hc0 hc1 x)]
  unfold kernelRun0_A
  dsimp only
  sl_unfold_words
  rw [View.canon_cons_unit_zero (S := S8x2048) origin, View.readCov_unit_zero (S := S8x2048) _ origin]
  simp only [View.readAt_eq_ld, h2.read_unread, View.ld_unit_zero (S := S2048x2048) origin]

/-- A middle step: the running sums end at the tile's contribution added to what the step before left. -/
theorem sums_middle (c : Dev nD) (i : grid0.Coords) (a2 : Memref sig .tc .vmem S2048x2048 .f32) (h2 : a2.IsWhole)
    (a3 : Memref sig .tc .vmem S1x2048 .f32) (h3 : a3.IsWhole) (a4 : Memref sig .tc .vmem S8x2048 .f32) (h4 : a4.IsWhole)
    (hc0 : ¬cond0_0 i) (hc1 : ¬cond0_1 i) (x : Vec F S2048x2048 .f32) (acc : Vec F S8x2048 .f32) :
    sout0_B_0 c i a2 h2 a3 h3 a4 h4 hc0 hc1 x acc = k0_pay2 x acc := by
  unfold sout0_B_0
  rw [View.read_writes_eq_canon _ _ _ (scover0_B_0 c i a2 h2 a3 h3 a4 h4 hc0 hc1 x acc)]
  unfold kernelRun0_B
  dsimp only
  rw [View.canon_unit_zero origin]
  simp only [View.readAt_eq_ld, h2.read_unread, h4.read_unread, View.ld_unit_zero (S := S2048x2048) origin,
    View.ld_unit_zero (S := S8x2048) origin]

/-- The last step of a strip updates the running sums in the same way. -/
theorem sums_last (c : Dev nD) (i : grid0.Coords) (a2 : Memref sig .tc .vmem S2048x2048 .f32) (h2 : a2.IsWhole)
    (a3 : Memref sig .tc .vmem S1x2048 .f32) (h3 : a3.IsWhole) (a4 : Memref sig .tc .vmem S8x2048 .f32) (h4 : a4.IsWhole)
    (hc0 : ¬cond0_0 i) (hc1 : cond0_1 i) (x : Vec F S2048x2048 .f32) (acc : Vec F S8x2048 .f32) :
    sout0_C_0 c i a2 h2 a3 h3 a4 h4 hc0 hc1 x acc = k0_pay2 x acc := by
  unfold sout0_C_0
  rw [View.read_writes_eq_canon _ _ _ (scover0_C_0 c i a2 h2 a3 h3 a4 h4 hc0 hc1 x acc)]
  unfold kernelRun0_C
  dsimp only
  sl_unfold_words
  rw [View.canon_unit_zero origin]
  simp only [View.readAt_eq_ld, h2.read_unread, h4.read_unread, View.ld_unit_zero (S := S2048x2048) origin,
    View.ld_unit_zero (S := S8x2048) origin]

/-- And it stores, as the strip's output row, the 8 updated running sums added up. -/
theorem row_last (c : Dev nD) (i : grid0.Coords) (a2 : Memref sig .tc .vmem S2048x2048 .f32) (h2 : a2.IsWhole)
    (a3 : Memref sig .tc .vmem S1x2048 .f32) (h3 : a3.IsWhole) (a4 : Memref sig .tc .vmem S8x2048 .f32) (h4 : a4.IsWhole)
    (hc0 : ¬cond0_0 i) (hc1 : cond0_1 i) (x : Vec F S2048x2048 .f32) (acc : Vec F S8x2048 .f32) :
    out0_C_1 c i a2 h2 a3 h3 a4 h4 hc0 hc1 x acc = k0_pay3 (k0_pay2 x acc) := by
  unfold out0_C_1
  rw [View.read_writes_eq_canon _ _ _ (cover0_C_1 c i a2 h2 a3 h3 a4 h4 hc0 hc1 x acc)]
  unfold kernelRun0_C
  dsimp only
  sl_unfold_words
  rw [View.canon_unit_zero origin, View.readCov_unit_zero (S := S8x2048) _ origin]
  simp only [View.readAt_eq_ld, h2.read_unread, h4.read_unread, View.ld_unit_zero (S := S2048x2048) origin,
    View.ld_unit_zero (S := S8x2048) origin]

end Cert.KernelIdeal.Pieces

end
-- ==== Proof.Steps.lean ====
/-
  The running sums and the output row point by point, for every reading of the floats: at the first point of a
  column strip the running sums are one step from zero; at every later point of the strip they are one step from what
  the point before left; and at the strip's last point the output row is the collapse of the running sums just
  written.
-/
import proofs.«102732_j46308337386059_2_alg».proof.Proof.Pieces

noncomputable section

open Idealize.ShloMosaic Idealize.ShloMosaic.TcCoe Idealize.SL.Sem

namespace Cert.KernelIdeal.Steps

open Cert.KernelIdeal Cert.KernelIdeal.Gen

variable {F : FTy → Type} [FloatOps F]
variable (m : (ℓ : Loc nD τ sig) → Buf (Elt F) ℓ)

/-- First point of a strip (position ≡ 0 mod 4): one step from the zero block. -/
theorem sums_first (c : Dev nD) (t : Fin cfg0.N) (h0 : t.val % 4 = 0) :
    (outsAt0 m c t.val t.isLt).2 = k0_pay2 (iblk m c 0 t) (k0_pay1 (F := F)) := by
  have h1 : ¬t.val % 4 = 3 := by omega
  rw [outsAt0_A m c t h0 h1]
  dsimp only
  exact Pieces.sums_first c (grid0.coords t) (ms0_0 t) (hs0_0 t) (ms0_1 t) (hs0_1 t) scM0_0 (Memref.isWhole_whole _)
    ((hcond0_0 t).mpr h0) (fun h => h1 ((hcond0_1 t).mp h)) (iblk m c 0 t)

/-- A later point of a strip: one step from what the point before left. -/
theorem sums_next (c : Dev nD) (t : Fin cfg0.N) (h0 : ¬t.val % 4 = 0) :
    (outsAt0 m c t.val t.isLt).2
      = k0_pay2 (iblk m c 0 t) (outsAt0 m c (t.val - 1) (Nat.lt_of_le_of_lt (Nat.sub_le _ _) t.isLt)).2 := by
  by_cases h1 : t.val % 4 = 3
  · rw [outsAt0_C m c t h0 h1]
    dsimp only
    exact Pieces.sums_last c (grid0.coords t) (ms0_0 t) (hs0_0 t) (ms0_1 t) (hs0_1 t) scM0_0 (Memref.isWhole_whole _)
      (fun h => h0 ((hcond0_0 t).mp h)) ((hcond0_1 t).mpr h1) (iblk m c 0 t)
      (outsAt0 m c (t.val - 1) (Nat.lt_of_le_of_lt (Nat.sub_le _ _) t.isLt)).2
  · rw [outsAt0_B m c t h0 h1]
    dsimp only
    exact Pieces.sums_middle c (grid0.coords t) (ms0_0 t) (hs0_0 t) (ms0_1 t) (hs0_1 t) scM0_0 (Memref.isWhole_whole _)
      (fun h => h0 ((hcond0_0 t).mp h)) (fun h => h1 ((hcond0_1 t).mp h)) (iblk m c 0 t)
      (outsAt0 m c (t.val - 1) (Nat.lt_of_le_of_lt (Nat.sub_le _ _) t.isLt)).2

/-- The same at position `n + 1`, with the point before at position `n`. -/
theorem sums_succ (c : Dev nD) (n : ℕ) (hn : n + 1 < cfg0.N) (h0 : ¬(n + 1) % 4 = 0) :
    (outsAt0 m c (n + 1) hn).2 = k0_pay2 (iblk m c 0 ⟨n + 1, hn⟩) (outsAt0 m c n (Nat.lt_of_succ_lt hn)).2 :=
  sums_next m c ⟨n + 1, hn⟩ h0

/-- Last point of a strip (position ≡ 3 mod 4): the output row is the collapse of the running sums this point leaves. -/
theorem row_last (c : Dev nD) (t : Fin cfg0.N) (h1 : t.val % 4 = 3) :
    (outsAt0 m c t.val t.isLt).1 = k0_pay3 (outsAt0 m c t.val t.isLt).2 := by
  have h0 : ¬t.val % 4 = 0 := by omega
  rw [outsAt0_C m c t h0 h1]
  dsimp only
  exact (Pieces.row_last c (grid0.coords t) (ms0_0 t) (hs0_0 t) (ms0_1 t) (hs0_1 t) scM0_0 (Memref.isWhole_whole _)
      (fun h => h0 ((hcond0_0 t).mp h)) ((hcond0_1 t).mpr h1) (iblk m c 0 t)
      (outsAt0 m c (t.val - 1) (Nat.lt_of_le_of_lt (Nat.sub_le _ _) t.isLt)).2).trans
    (congrArg k0_pay3 (Pieces.sums_last c (grid0.coords t) (ms0_0 t) (hs0_0 t) (ms0_1 t) (hs0_1 t) scM0_0 (Memref.isWhole_whole _)
      (fun h => h0 ((hcond0_0 t).mp h)) ((hcond0_1 t).mpr h1) (iblk m c 0 t)
      (outsAt0 m c (t.val - 1) (Nat.lt_of_le_of_lt (Nat.sub_le _ _) t.isLt)).2).symm)

end Cert.KernelIdeal.Steps

end
-- ==== Proof.Tile.lean ====
/-
  Where the windows sit. Grid position `t` (0 … 7) is step `t % 4` of column strip `t / 4`. The input tile at `t`
  is rows `(t % 4) * 2048 …` and columns `(t / 4) * 2048 …` of the argument, so its entry `(p, q)` is the argument's
  entry `((t % 4) * 2048 + p, (t / 4) * 2048 + q)`. The output block at `t` is columns `(t / 4) * 2048 …` of the one
  output row.
-/
import proofs.«102732_j46308337386059_2_alg».proof.Proof.Gen.KernelIdeal.Frame
import Idealize.ShloMosaic.Lib.ValueIdx
import Idealize.ShloMosaic.Lib.Pipeline.Value

noncomputable section

open Idealize.ShloMosaic Idealize.ShloMosaic.TcCoe Idealize.SL.Sem

namespace Cert.KernelIdeal.Tile

open Cert.KernelIdeal Cert.KernelIdeal.Gen Idealize.ShloMosaic.ValueIdx

variable {F : FTy → Type} [FloatOps F]
variable (m : (ℓ : Loc nD τ sig) → Buf (Elt F) ℓ)

/-- The printed index maps over the grid: the input tile's block index is (step, strip), the output's (0, strip). -/
theorem index_maps : ∀ t : Fin cfg0.N, win0_0.index t (0 : Fin 2) = t.val % 4 ∧ win0_0.index t (1 : Fin 2) = t.val / 4
    ∧ win0_1.index t (0 : Fin 2) = 0 ∧ win0_1.index t (1 : Fin 2) = t.val / 4 :=
  (by decide +kernel : ∀ t : Fin grid0.N, win0_0.index t (0 : Fin 2) = t.val % 4 ∧ win0_0.index t (1 : Fin 2) = t.val / 4
    ∧ win0_1.index t (0 : Fin 2) = 0 ∧ win0_1.index t (1 : Fin 2) = t.val / 4)

/-- The input tile at position `t`, at `(p, q)`: the argument at the row and column the caller names, given that they
    are `(t % 4) * 2048 + p` and `(t / 4) * 2048 + q`. -/
theorem tile_apply (c : Dev nD) (t : Fin cfg0.N) (p q : Fin 2048) (r : Fin 8192) (k : Fin 4096)
    (hr : r.val = t.val % 4 * 2048 + p.val) (hk : k.val = t.val / 4 * 2048 + q.val) :
    (iblk m c 0 t : Vec F S2048x2048 .f32) (ix2 p q) = m ((c : Thread nD τ).loc main_arg0) (ix2 r k) := by
  obtain ⟨e0, e1, -, -⟩ := index_maps t
  unfold iblk
  rw [View.read_apply]
  show V m c main_arg0 _ = _
  rw [V_main_arg0]
  refine congrArg _ (funext fun a => Fin.ext ?_)
  match a with
  | ⟨0, _⟩ => show win0_0.index t (0 : Fin 2) * 2048 + 1 * p.val = r.val; rw [e0, hr]; omega
  | ⟨1, _⟩ => show win0_0.index t (1 : Fin 2) * 2048 + 1 * q.val = k.val; rw [e1, hk]; omega

end Cert.KernelIdeal.Tile

end
-- ==== Proof.Payload.lean ====
/-
  The body's arithmetic on the extended reals, entry by entry.

  The zero block is 0 everywhere. One step adds to running sum `(s, l)` the tile's entries `(g * 8 + s, l)` over its
  256 groups `g`: the tile viewed as [256, 8, 2048] has entry `(g, s, l)` at row-major position
  `(g * 8 + s) * 2048 + l`, which is entry `(g * 8 + s, l)` of the [2048, 2048] tile, and the reduction over the
  leading axis is the sum over `g`. The output row's entry `l` is the sum over the 8 positions `s` of running sum
  `(s, l)`.
-/
import proofs.«102732_j46308337386059_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-- Row `s` of group `g` of a 2048-row tile. -/
def tileRow (g : Fin 256) (s : Fin 8) : Fin 2048 := ⟨g.val * 8 + s.val, by omega⟩

/-- The block the first step of a strip stores is zero everywhere. -/
theorem zeros_apply (y : S8x2048.Idx) : k0_pay1 (F := Ideal) y = 0 := by
  unfold k0_pay1
  simp only [shapeCast_self]
  exact Ideal.ofBits_zero_f32

/-- One step, at running sum `(s, l)`: what was there plus the tile's 256 entries `(g * 8 + s, l)`. -/
theorem step_apply (x : Vec Ideal S2048x2048 .f32) (acc : Vec Ideal S8x2048 .f32) (s : Fin 8) (l : Fin 2048) :
    k0_pay2 x acc (ix2 s l) = acc (ix2 s l) + ∑ g : Fin 256, x (ix2 (tileRow g s) l) := by
  unfold k0_pay2
  simp only [shapeCast_self]
  refine congrArg (acc (ix2 s l) + ·) ?_
  refine (Ideal.multiReduction_add_single _ 0x00000000#32 reduces_S256x8x2048_S8x2048 (.inl rfl) rfl (ix2 s l)).trans ?_
  refine Finset.sum_congr rfl fun g _ => ?_
  refine shapeCast_apply x _ _ (ix2 (tileRow g s) l) ?_
  rw [Shape.rowMajor_val_two, Shape.rowMajor_val_three]
  rfl

/-- The output row at `l`: the 8 running sums of column `l` added up. -/
theorem collapse_apply (acc : Vec Ideal S8x2048 .f32) (u : Fin 1) (l : Fin 2048) :
    k0_pay3 acc (ix2 u l) = ∑ s : Fin 8, acc (ix2 s l) := by
  unfold k0_pay3
  refine (shapeCast_a_1a_apply _ _ u l).trans ?_
  refine (Ideal.multiReduction_add_single _ 0x00000000#32 reduces_S8x2048_S2048 (.inl rfl) rfl (ix1 l)).trans ?_
  refine Finset.sum_congr rfl fun s _ => congrArg acc ?_
  exact funext fun a => Fin.ext (by match a with | ⟨0, _⟩ => rfl | ⟨1, _⟩ => rfl)

end Cert.KernelIdeal.Payload

end
-- ==== Proof.LibBlockedSums.lean ====
/-
  Finite sums over a product index, as a tiled contraction meets them.

  A contraction over `A * B` columns computed block by block (an accumulator that adds one block of `B` columns
  per step) is the sum over all columns; a contraction over rows numbered `a * M + j` (row `a` of slab `j`,
  the slabs interleaved) is the sum over the slabs of the sums over their rows; a contraction padded by rows
  whose terms vanish is the contraction over the unpadded rows. All three hold in any commutative additive
  monoid, so in particular over the extended reals, where they need no finiteness: only the order and the
  grouping of the terms change, and the padding terms are exact zeros.
-/
import Mathlib.Algebra.BigOperators.Fin
import Mathlib.Algebra.BigOperators.Group.Finset.Basic
import Mathlib.Logic.Equiv.Fin.Basic
import Mathlib.Tactic.Ring
import Mathlib.Tactic.Linarith

namespace BlockedSums

variable {M : Type*} [AddCommMonoid M]

/-- Column `b` of block `a`, numbered row-major, is a column of the whole. -/
theorem idx_lt {A B : ℕ} (a : Fin A) (b : Fin B) : a.val * B + b.val < A * B := by
  have ha := a.isLt
  have hb := b.isLt
  calc a.val * B + b.val < a.val * B + B := by omega
    _ = (a.val + 1) * B := by ring
    _ ≤ A * B := Nat.mul_le_mul_right B ha

/-- A sum over `A * B` columns is the sum over the `A` blocks of the sums over each block's `B` columns. -/
theorem sum_blocks (A B : ℕ) (f : Fin (A * B) → M) :
    ∑ k, f k = ∑ a : Fin A, ∑ b : Fin B, f ⟨a.val * B + b.val, idx_lt a b⟩ := by
  rw [← Equiv.sum_comp finProdFinEquiv f, Fintype.sum_prod_type]
  refine Finset.sum_congr rfl fun a _ => Finset.sum_congr rfl fun b _ => congrArg f (Fin.ext ?_)
  show b.val + B * a.val = a.val * B + b.val
  ring

/-- The same sum with the roles exchanged: over the `B` positions inside a block, of the sums over the blocks
    (rows numbered `a * B + j` gathered slab by slab, slab `j` holding the rows `a * B + j`). -/
theorem sum_interleaved (A B : ℕ) (f : Fin (A * B) → M) :
    ∑ k, f k = ∑ j : Fin B, ∑ a : Fin A, f ⟨a.val * B + j.val, idx_lt a j⟩ := by
  rw [sum_blocks, Finset.sum_comm]

/-- Padding rows whose terms vanish leave a sum as it was. -/
theorem sum_padded (K P : ℕ) (f : Fin (K + P) → M) (hz : ∀ k : Fin (K + P), K ≤ k.val → f k = 0) :
    ∑ k, f k = ∑ k : Fin K, f (Fin.castAdd P k) := by
  rw [Fin.sum_univ_add]
  have h0 : ∑ i : Fin P, f (Fin.natAdd K i) = 0 :=
    Finset.sum_eq_zero fun i _ => hz _ (by simp [Fin.natAdd])
  rw [h0, add_zero]

/-- An accumulator that starts from the first block's contribution and adds one block per step holds, after
    step `n`, the sum of the contributions of the blocks `0 … n`. -/
theorem acc_eq_sum (g : ℕ → M) (acc : ℕ → M) (h0 : acc 0 = g 0) (hs : ∀ n, acc (n + 1) = acc n + g (n + 1)) (n : ℕ) :
    acc n = ∑ i ∈ Finset.range (n + 1), g i := by
  induction n with
  | zero => simp [h0]
  | succ n ih => rw [hs, ih, Finset.sum_range_succ _ (n + 1)]

/-- The same for an accumulator zeroed before the first block is added. -/
theorem acc_from_zero_eq_sum (g : ℕ → M) (acc : ℕ → M) (h0 : acc 0 = 0 + g 0) (hs : ∀ n, acc (n + 1) = acc n + g (n + 1)) (n : ℕ) :
    acc n = ∑ i ∈ Finset.range (n + 1), g i :=
  acc_eq_sum g acc (by rw [h0, zero_add]) hs n

/-- The blocks `0 … A - 1` summed over a range are the blocks summed over `Fin A`. -/
theorem sum_range_eq_sum_fin (A : ℕ) (g : ℕ → M) : ∑ i ∈ Finset.range A, g i = ∑ a : Fin A, g a.val :=
  (Fin.sum_univ_eq_sum_range g A).symm

end BlockedSums
-- ==== Proof.ColumnSum.lean ====
/-
  The result both programs compute, and the regrouping that joins them.

  Entry `j` of the result is the sum over all 8192 rows `r` of `x r j`. The reference adds the rows of a column in
  one sum. The kernel cuts the rows into 4 slabs of 2048, each slab into 256 groups of 8 consecutive rows, keeps 8
  running sums (one per position `s` inside a group) to which every slab adds its 256 groups, and adds the 8 running
  sums at the end. Row `r` is `i * 2048 + g * 8 + s` for exactly one slab `i`, group `g` and position `s`, so the
  two are the same terms in another order and grouping: equal in any commutative additive monoid, in particular on
  the extended reals, with no finiteness needed.
-/
import Idealize.ShloMosaic.PureOps.Ideal
import Idealize.ShloMosaic.Lib.ValueIdx
import proofs.«102732_j46308337386059_2_alg».proof.Proof.LibBlockedSums

noncomputable section

open scoped BigOperators

namespace Cert.ColumnSum

open Idealize.ShloMosaic Idealize.ShloMosaic.ValueIdx

/-- The column sums of an [8192, 4096] array: entry `j` is the sum of column `j` over all rows. -/
def colSum {M : Type*} [AddCommMonoid M] (x : (⟨2, ![8192, 4096]⟩ : Shape).Idx → M) :
    (⟨1, ![4096]⟩ : Shape).Idx → M :=
  fun j => ∑ r : Fin 8192, x (ix2 r (j 0))

/-- Row `s` of group `g` of slab `i`. (Taken modulo 8192 so that it is a row for every natural `i`; for `i < 4`
    nothing is cut off.) -/
def row (i : ℕ) (g : Fin 256) (s : Fin 8) : Fin 8192 :=
  ⟨(i * 2048 + (g.val * 8 + s.val)) % 8192, Nat.mod_lt _ (by norm_num)⟩

/-- Column `l` of column strip `J` (modulo 4096, likewise). -/
def col (J : ℕ) (l : Fin 2048) : Fin 4096 :=
  ⟨(J * 2048 + l.val) % 4096, Nat.mod_lt _ (by norm_num)⟩

theorem row_val {i : ℕ} (hi : i < 4) (g : Fin 256) (s : Fin 8) : (row i g s).val = i * 2048 + (g.val * 8 + s.val) := by
  have := g.isLt; have := s.isLt
  exact Nat.mod_eq_of_lt (by omega)

theorem col_val {J : ℕ} (hJ : J < 2) (l : Fin 2048) : (col J l).val = J * 2048 + l.val := by
  have := l.isLt
  exact Nat.mod_eq_of_lt (by omega)

/-- The regrouping: the 8 running sums, each the sum over the 4 slabs of the sums over a slab's 256 groups, added
    up, are the sum over all 8192 rows. -/
theorem sum_positions_slabs_groups {M : Type*} [AddCommMonoid M] (f : Fin 8192 → M) :
    ∑ s : Fin 8, ∑ i ∈ Finset.range 4, ∑ g : Fin 256, f (row i g s) = ∑ r : Fin 8192, f r := by
  have hslab : ∑ r : Fin 8192, f r
      = ∑ i : Fin 4, ∑ b : Fin 2048, f ⟨i.val * 2048 + b.val, BlockedSums.idx_lt i b⟩ :=
    BlockedSums.sum_blocks 4 2048 f
  have hgroup : ∀ i : Fin 4, ∑ b : Fin 2048, f ⟨i.val * 2048 + b.val, BlockedSums.idx_lt i b⟩
      = ∑ s : Fin 8, ∑ g : Fin 256, f (row i.val g s) := fun i => by
    rw [BlockedSums.sum_interleaved 256 8 (fun b : Fin 2048 => f ⟨i.val * 2048 + b.val, BlockedSums.idx_lt i b⟩)]
    refine Finset.sum_congr rfl fun s _ => Finset.sum_congr rfl fun g _ => congrArg f (Fin.ext ?_)
    exact (row_val i.isLt g s).symm
  have hall : ∑ i : Fin 4, ∑ b : Fin 2048, f ⟨i.val * 2048 + b.val, BlockedSums.idx_lt i b⟩
      = ∑ i : Fin 4, ∑ s : Fin 8, ∑ g : Fin 256, f (row i.val g s) :=
    Finset.sum_congr rfl fun i _ => hgroup i
  have hswap : ∑ i : Fin 4, ∑ s : Fin 8, ∑ g : Fin 256, f (row i.val g s)
      = ∑ s : Fin 8, ∑ i : Fin 4, ∑ g : Fin 256, f (row i.val g s) := Finset.sum_comm
  rw [hslab, hall, hswap]
  refine Finset.sum_congr rfl fun s _ => ?_
  exact BlockedSums.sum_range_eq_sum_fin 4 (fun i => ∑ g : Fin 256, f (row i g s))

end Cert.ColumnSum

end
-- ==== Proof.RunningSums.lean ====
/-
  The running sums in closed form, on the extended reals.

  After grid position `n` (step `n % 4` of column strip `n / 4`) running sum `(s, l)` holds the sum, over the slabs
  `i = 0 … n % 4` and the 256 groups `g` of each, of the argument at row `i * 2048 + g * 8 + s` and column
  `(n / 4) * 2048 + l`: zero plus the first slab's groups at the strip's first step, and one more slab's groups at
  every later step. By induction on `n`. At the strip's last step the slabs are all four, the output row adds the 8
  positions `s`, and the regrouping of the specification makes that the sum over all 8192 rows of the column.
-/
import proofs.«102732_j46308337386059_2_alg».proof.Proof.Steps
import proofs.«102732_j46308337386059_2_alg».proof.Proof.Tile
import proofs.«102732_j46308337386059_2_alg».proof.Proof.Payload
import proofs.«102732_j46308337386059_2_alg».proof.Proof.ColumnSum

noncomputable section

open scoped BigOperators
open Idealize.ShloMosaic Idealize.ShloMosaic.TcCoe Idealize.SL.Sem

namespace Cert.KernelIdeal.RunningSums

open Cert.KernelIdeal Cert.KernelIdeal.Gen Idealize.ShloMosaic.ValueIdx Cert.ColumnSum Cert.KernelIdeal.Payload

variable (m : (ℓ : Loc nD τ sig) → Buf (Elt Ideal) ℓ)

/-- The argument array on core `c`, as a function into the extended reals. -/
abbrev arg (c : Dev nD) : S8192x4096.Idx → EReal := m ((c : Thread nD τ).loc main_arg0)

/-- The input tile at position `t`, likewise. -/
abbrev tile (c : Dev nD) (t : Fin cfg0.N) : S2048x2048.Idx → EReal := iblk m c 0 t

/-- What the tile at position `t` adds to running sum `(s, l)`: slab `t % 4`'s groups, in column `l` of strip `t / 4`. -/
theorem contribution (c : Dev nD) (t : Fin cfg0.N) (s : Fin 8) (l : Fin 2048) :
    ∑ g : Fin 256, tile m c t (ix2 (tileRow g s) l)
      = ∑ g : Fin 256, arg m c (ix2 (row (t.val % 4) g s) (col (t.val / 4) l)) := by
  have hN : t.val < 8 := lt_of_lt_of_eq t.isLt (show cfg0.N = 8 from N_0)
  refine Finset.sum_congr rfl fun g _ => ?_
  refine Tile.tile_apply m c t (tileRow g s) l _ _ ?_ ?_
  · rw [row_val (by omega) g s]; rfl
  · exact col_val (by omega) l

/-- The running sums after position `n`. -/
theorem sums_eq (c : Dev nD) : ∀ (n : ℕ) (hn : n < cfg0.N) (s : Fin 8) (l : Fin 2048),
    (outsAt0 m c n hn).2 (ix2 s l)
      = ∑ i ∈ Finset.range (n % 4 + 1), ∑ g : Fin 256,
          arg m c (ix2 (row i g s) (col (n / 4) l))
  | 0, hn, s, l => by
    refine (congrFun (Steps.sums_first m c ⟨0, hn⟩ rfl) (ix2 s l)).trans ?_
    refine (step_apply (tile m c ⟨0, hn⟩) (k0_pay1 (F := Ideal)) s l).trans ?_
    rw [zeros_apply, zero_add]
    refine (contribution m c ⟨0, hn⟩ s l).trans ?_
    exact (Finset.sum_range_one (fun i => ∑ g : Fin 256, arg m c (ix2 (row i g s) (col (0 / 4) l)))).symm
  | n + 1, hn, s, l => by
    have hN : n + 1 < 8 := lt_of_lt_of_eq hn (show cfg0.N = 8 from N_0)
    by_cases h0 : (n + 1) % 4 = 0
    · refine (congrFun (Steps.sums_first m c ⟨n + 1, hn⟩ h0) (ix2 s l)).trans ?_
      refine (step_apply (tile m c ⟨n + 1, hn⟩) (k0_pay1 (F := Ideal)) s l).trans ?_
      rw [zeros_apply, zero_add]
      refine (contribution m c ⟨n + 1, hn⟩ s l).trans ?_
      dsimp only
      rw [h0]
      exact (Finset.sum_range_one (fun i => ∑ g : Fin 256, arg m c (ix2 (row i g s) (col ((n + 1) / 4) l)))).symm
    · have hi : (n + 1) % 4 = n % 4 + 1 := by omega
      have hJ : (n + 1) / 4 = n / 4 := by omega
      refine (congrFun (Steps.sums_succ m c n hn h0) (ix2 s l)).trans ?_
      refine (step_apply (tile m c ⟨n + 1, hn⟩)
        (outsAt0 m c n (Nat.lt_of_succ_lt hn)).2 s l).trans ?_
      refine (congrArg₂ (· + ·) (sums_eq c n (Nat.lt_of_succ_lt hn) s l) (contribution m c ⟨n + 1, hn⟩ s l)).trans ?_
      dsimp only
      rw [hi, hJ]
      exact (Finset.sum_range_succ (fun i => ∑ g : Fin 256, arg m c (ix2 (row i g s) (col (n / 4) l))) (n % 4 + 1)).symm

/-- At a strip's last step the output row holds, at `l`, the whole column's sum over the 8192 rows. -/
theorem row_eq (c : Dev nD) (t : Fin cfg0.N) (h1 : t.val % 4 = 3) (u : Fin 1) (l : Fin 2048) :
    (outsAt0 m c t.val t.isLt).1 (ix2 u l)
      = ∑ r : Fin 8192, arg m c (ix2 r (col (t.val / 4) l)) := by
  refine (congrFun (Steps.row_last m c t h1) (ix2 u l)).trans ?_
  refine (collapse_apply (outsAt0 m c t.val t.isLt).2 u l).trans ?_
  have e : ∀ s : Fin 8, (outsAt0 m c t.val t.isLt).2 (ix2 s l)
      = ∑ i ∈ Finset.range 4, ∑ g : Fin 256,
          arg m c (ix2 (row i g s) (col (t.val / 4) l)) := fun s => by
    rw [sums_eq m c t.val t.isLt s l, h1]
  rw [Finset.sum_congr rfl fun s _ => e s]
  exact sum_positions_slabs_groups (fun r => arg m c (ix2 r (col (t.val / 4) l)))

end Cert.KernelIdeal.RunningSums

end
-- ==== Proof.Result.lean ====
/-
  The kernel's result.

  The output row [1, 4096] is written back once per column strip, at the strip's last step, and the two strips' blocks
  (columns 0 … 2047 and 2048 … 4095) cover it; what is written at column `k` is the sum of column `k` over all 8192
  rows. The program then reshapes the row [1, 4096] to the vector [4096], which reads entry `k` at `(0, k)`. So the
  result is the column sums of the argument.
-/
import proofs.«102732_j46308337386059_2_alg».proof.Proof.RunningSums
import Idealize.ShloMosaic.Lib.ValueLayout
import Idealize.ShloMosaic.Lib.StableHlo.Run

noncomputable section

open scoped BigOperators
open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx Cert.ColumnSum Cert.KernelIdeal.RunningSums

variable (m : (ℓ : Loc nD τ sig) → Buf (Elt Ideal) ℓ) (ρ : Dev nD → PrngReg)

/-- The output row: at `(0, k)` the sum of column `k` of the argument. -/
def rowOut (c : Dev nD) : S1x4096.Idx → EReal :=
  fun y => colSum (arg m c) (ix1 ⟨(y 1).val, idx2_lt1 y⟩)

/-- The output block at a strip's last step, read at any of its entries: the column sum of the entry's column. -/
theorem block_apply (c : Dev nD) (t : Fin cfg0.N) (h3 : t.val % 4 = 3) (y : S1x2048.Idx) :
    (outsAt0 m c t.val t.isLt).1 y = colSum (arg m c) (ix1 (col (t.val / 4) ⟨(y 1).val, idx2_lt1 y⟩)) :=
  (congrArg (outsAt0 m c t.val t.isLt).1 (eq_ix2 y)).trans (row_eq m c t h3 (y 0) (y 1))

/-- What a strip's last step writes back is its block of the output row. -/
theorem flushed_eq (c : Dev nD) (t : Fin cfg0.N) (hf : (cfg0.win 1).flush t = true) :
    (dats m 0 c).flushed 1 t = ((cfg0.win 1).blk t).view.read (Elt Ideal) (rowOut m c) := by
  have h3 : t.val % 4 = 3 := (flush0_1 t).mp hf
  have hN : t.val < 8 := lt_of_lt_of_eq t.isLt (show cfg0.N = 8 from N_0)
  obtain ⟨-, -, -, e1⟩ := Tile.index_maps t
  show (cfg0.win 1).cut (grid0.coords t) ((dats m 0 c).after 1 t) = _
  rw [after0_1]
  funext y
  rw [View.read_apply]
  refine (block_apply m c t h3 y).trans ?_
  show colSum (arg m c) (ix1 _) = colSum (arg m c) (ix1 _)
  refine congrArg (fun k => colSum (arg m c) (ix1 k)) (Fin.ext ?_)
  show (col (t.val / 4) ⟨(y 1).val, idx2_lt1 y⟩).val = win0_1.index t (1 : Fin 2) * 2048 + 1 * (y 1).val
  rw [col_val (by omega), e1]
  show t.val / 4 * 2048 + (y 1).val = t.val / 4 * 2048 + 1 * (y 1).val
  omega

/-- An entry of the output row is in position `t`'s block iff each coordinate is in the block's range. -/
theorem mem_block (t : Fin cfg0.N) (i : S1x4096.Idx) :
    i ∈ ((cfg0.win 1).blk t).view.set ↔ ∀ a : Fin 2, win0_1.index t a * S1x2048.size a ≤ (i a).val
      ∧ (i a).val < win0_1.index t a * S1x2048.size a + S1x2048.size a := by
  show i ∈ ((View.whole main_v0).slice (win0_1.rect t)).set ↔ _
  rw [View.set_slice_whole, Rect.mem_set_unit]
  exact Iff.rfl

/-- Every entry of the output row is written back by the last step of its column's strip. -/
theorem covered (i : S1x4096.Idx) :
    ∃ t : Fin cfg0.N, (cfg0.win 1).flush t = true ∧ i ∈ ((cfg0.win 1).blk t).view.set := by
  have hN : cfg0.N = 8 := N_0
  have hi0 : (i 0).val < 1 := idx2_lt0 i
  have hi1 : (i 1).val < 4096 := idx2_lt1 i
  let t : Fin cfg0.N := ⟨(i 1).val / 2048 * 4 + 3, by rw [hN]; omega⟩
  have ht : t.val = (i 1).val / 2048 * 4 + 3 := rfl
  obtain ⟨-, -, e0, e1⟩ := Tile.index_maps t
  refine ⟨t, (flush0_1 t).mpr (by rw [ht]; omega), ?_⟩
  rw [mem_block]
  intro a
  match a with
  | ⟨0, _⟩ =>
    show win0_1.index t (0 : Fin 2) * 1 ≤ (i 0).val ∧ (i 0).val < win0_1.index t (0 : Fin 2) * 1 + 1
    rw [e0]; omega
  | ⟨1, _⟩ =>
    show win0_1.index t (1 : Fin 2) * 2048 ≤ (i 1).val ∧ (i 1).val < win0_1.index t (1 : Fin 2) * 2048 + 2048
    rw [e1, ht]; omega

/-- So after the run the output row holds the column sums. -/
theorem final_row (c : Dev nD) : (dats m 0 c).arrAt 1 cfg0.N = rowOut m c :=
  (dats m 0 c).arrAt_eq_of_cover 1 (rowOut m c) (fun t hf => flushed_eq m c t hf) covered

/-- The reshape after the region: the program's result is the column sums of the argument. -/
theorem result_eq (c : Dev nD) :
    Pipeline.afterTail₀ cfgs (dats m) 0 (V0 m) [hostOps1] c main_v1 = colSum (arg m c) := by
  unfold Pipeline.afterTail₀
  show StableHlo.after hostOps1 _ (Proc.devRef .tc main_v1) = _
  after_results
  rw [(Pipeline.withArrays_arr spec0 launch0.win.arr_inj c _ _ 1).trans (final_row m c)]
  funext j
  obtain ⟨k, rfl⟩ : ∃ k : Fin 4096, j = ix1 k := ⟨j 0, eq_ix1 j⟩
  refine (shapeCast_1a_a_apply (rowOut m c) _ k).trans ?_
  rfl

/-- The kernel's run: every weakly fair execution ends with the result at the column sums and the argument unchanged. -/
theorem run : θ_run defs (onTc (τ := τ) (main (F := Ideal))) ⟨m, fun _ => 0, ρ⟩ fun r => ∀ c : Dev nD,
      r.2.mem ((c : Thread nD τ).loc main_v1) = colSum (arg m c)
      ∧ r.2.mem ((c : Thread nD τ).loc main_arg0) = m ((c : Thread nD τ).loc main_arg0) :=
  (θ_run defs _ _).mono (fun r h c =>
      ⟨((h c).2 main_v1 (Pipeline.mem_restRefs_of main_v1 rfl (by decide))).trans (result_eq m c),
        ((h c).1 0).trans (((dats m 0 c).arrAt_in 0 rfl _).trans ((A_eq m c 0).trans (V_main_arg0 m c)))⟩)
    (run_main m ρ)

end Cert.KernelIdeal.Result

end
-- ==== Proof.ReferenceSum.lean ====
/-
  The reference's result is the column sums: its one reduction, read at entry `j`, is zero plus the sum over the
  8192 rows `k` of the argument at `(k, j)`, and zero is the additive identity of the extended reals.
-/
import proofs.«102732_j46308337386059_2_alg».proof.Proof.Gen.ReferenceIdeal.Read
import proofs.«102732_j46308337386059_2_alg».proof.Proof.ColumnSum

noncomputable section

open scoped BigOperators

namespace Cert.ReferenceIdeal.RefValue

open Cert.ReferenceIdeal Cert.ReferenceIdeal.Read Idealize.ShloMosaic Idealize.ShloMosaic.ValueIdx Cert.ColumnSum

/-- The reference's reduction over axis 0 is `colSum` of its argument. -/
theorem reduce_eq_colSum (x : (⟨S8192x4096, .f32⟩ : BufTy).Contents (Elt Ideal)) :
    val_main_v0 (F := Ideal) x = colSum (M := EReal) x := by
  funext j
  rw [val_main_v0_apply, val_main_cst_apply, Ideal.ofBits_def, Ideal.ofBits_zero_f32, zero_add]
  unfold colSum
  exact Finset.sum_congr rfl fun k _ => congrArg x (funext fun a => Fin.ext (by match a with | ⟨0, _⟩ => rfl | ⟨1, _⟩ => rfl))

end Cert.ReferenceIdeal.RefValue

end
-- ==== Proof.lean ====
/-
  The sum of an [8192, 4096] array over its rows, tiled, against the same sum taken at once.

  The reference is `jnp.sum(x, axis=0)`: entry `j` of its result is `0 + ∑ r, x r j` over the 8192 rows. The kernel walks
  a grid of 2 column strips by 4 row slabs with [2048, 2048] tiles. Inside a tile it views the 2048 rows as 256 groups
  of 8 and adds the groups, keeping 8 running sums per column; the running sums are zeroed at a strip's first slab
  and grow by one slab per step; at the strip's last slab the 8 running sums are added into the strip's block of the
  one output row [1, 4096], which the program reshapes to [4096]. Row `r = i * 2048 + g * 8 + s` is counted exactly
  once, in slab `i`, group `g`, running sum `s`, so on the extended reals — where addition is commutative and
  associative and 0 is its identity, infinities included — both programs compute the column sums `colSum x`. No
  finiteness of the input is used.

  The three frames: the kernel's two are the generated frame certificates; the reference's is its generated run with
  the result dropped. The idealization rewrote nothing, so `preserves` is `True`. The algebraic claim states both
  runs' results as `colSum` of arguments that agree.
-/
import proofs.«102732_j46308337386059_2_alg».proof.Defs
import proofs.«102732_j46308337386059_2_alg».proof.Proof.Gen.Kernel
import proofs.«102732_j46308337386059_2_alg».proof.Proof.Gen.Kernel.Skeleton
import proofs.«102732_j46308337386059_2_alg».proof.Proof.Gen.Kernel.Launch
import proofs.«102732_j46308337386059_2_alg».proof.Proof.Gen.Kernel.Points
import proofs.«102732_j46308337386059_2_alg».proof.Proof.Gen.Kernel.Frame
import proofs.«102732_j46308337386059_2_alg».proof.Proof.Gen.KernelIdeal
import proofs.«102732_j46308337386059_2_alg».proof.Proof.Gen.KernelIdeal.Skeleton
import proofs.«102732_j46308337386059_2_alg».proof.Proof.Gen.KernelIdeal.Launch
import proofs.«102732_j46308337386059_2_alg».proof.Proof.Gen.KernelIdeal.Points
import proofs.«102732_j46308337386059_2_alg».proof.Proof.Gen.KernelIdeal.Frame
import proofs.«102732_j46308337386059_2_alg».proof.Proof.Gen.ReferenceIdeal
import proofs.«102732_j46308337386059_2_alg».proof.Proof.Gen.ReferenceIdeal.Run
import proofs.«102732_j46308337386059_2_alg».proof.Proof.Gen.ReferenceIdeal.Read
import proofs.«102732_j46308337386059_2_alg».proof.Proof.Gen.Pre_finite_inputs
import proofs.«102732_j46308337386059_2_alg».proof.Proof.Result
import proofs.«102732_j46308337386059_2_alg».proof.Proof.ReferenceSum
import Idealize.ShloMosaic.Adequacy
import Idealize.ShloMosaic.Init

noncomputable section

namespace Cert.Proof

open Idealize.ShloMosaic Idealize.SL.Sem

/-- The kernel as printed runs and leaves its argument unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- And the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals both programs end with the column sums of arguments that agree. -/
theorem algebraic : Cert.algebraic_KernelIdeal_ReferenceIdeal := by
  intro m ρ m' ρ' _ hagree
  refine ⟨fun c => Cert.ColumnSum.colSum (M := EReal) (Cert.KernelIdeal.RunningSums.arg m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.reduce_eq_colSum, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
